-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S262144x128 : Shape := ⟨2, ![262144, 128]⟩
abbrev S32x512 : Shape := ⟨2, ![32, 512]⟩
abbrev S128x512 : Shape := ⟨2, ![128, 512]⟩
abbrev S512 : Shape := ⟨1, ![512]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S32x512 : S_.BroadcastsInDim S32x512 (![] : Fin 0 → Fin S32x512.rank)
  reducesTo_S32x512_S_d0_1 : S32x512.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S128x512 .f32) (main_arg5 : FVec F S512 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S262144x32 .f32) (main_arg1 : FVec F S262144x128 .f32) (main_arg2 : FVec F S262144x128 .f32) (main_arg3 : FVec F S32x512 .f32) (main_arg4 : FVec F S128x512 .f32) (main_arg5 : FVec F S512 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_arg5 main_v13 main_v16
-- ==== Kernel.lean ====
abbrev S262144x32 : Shape := ⟨2, ![262144, 32]⟩
abbrev S262144x128 : Shape := ⟨2, ![262144, 128]⟩
abbrev S32x512 : Shape := ⟨2, ![32, 512]⟩
abbrev S128x512 : Shape := ⟨2, ![128, 512]⟩
abbrev S512 : Shape := ⟨1, ![512]⟩
abbrev S1x512 : Shape := ⟨2, ![1, 512]⟩
abbrev S8192x32 : Shape := ⟨2, ![8192, 32]⟩
abbrev S8192x128 : Shape := ⟨2, ![8192, 128]⟩
abbrev S8192x512 : Shape := ⟨2, ![8192, 512]⟩
abbrev S8192x384 : Shape := ⟨2, ![8192, 384]⟩

abbrev nBuf : Space → Nat
  | .hbm => 9
  | .vmem => 13
  | .smem => 0
  | _ => 0

abbrev bufTy : (tb : Table) → Fin (tcTables nBuf tb) → BufTy
  | .hbm, ⟨0, _⟩ => ⟨S262144x32, .f32⟩
  | .hbm, ⟨1, _⟩ => ⟨S262144x128, .f32⟩
  | .hbm, ⟨2, _⟩ => ⟨S262144x128, .f32⟩
  | .hbm, ⟨3, _⟩ => ⟨S32x512, .f32⟩
  | .hbm, ⟨4, _⟩ => ⟨S128x512, .f32⟩
  | .hbm, ⟨5, _⟩ => ⟨S512, .f32⟩
  | .hbm, ⟨6, _⟩ => ⟨S1x512, .f32⟩
  | .hbm, ⟨7, _⟩ => ⟨S262144x128, .f32⟩
  | .hbm, ⟨8, _⟩ => ⟨S262144x128, .f32⟩
  | .local _ .vmem, ⟨0, _⟩ => ⟨S8192x32, .f32⟩
  | .local _ .vmem, ⟨1, _⟩ => ⟨S8192x32, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S32x512, .f32⟩
  | .local _ .vmem, ⟨7, _⟩ => ⟨S128x512, .f32⟩
  | .local _ .vmem, ⟨8, _⟩ => ⟨S1x512, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S512_S1x512 : S512.ShapeCasts S1x512
  inb_S8192x32_S8192x32_0_0 : ∀ a, (![0, 0] : Fin 2 → Nat) a + S8192x32.size a ≤ S8192x32.size a
  h_S8192x32 : 0 < S8192x32.numel
  inb_S8192x128_S8192x128_0_0 : ∀ a, (![0, 0] : Fin 2 → Nat) a + S8192x128.size a ≤ S8192x128.size a
  h_S8192x128 : 0 < S8192x128.numel
  inb_S32x512_S32x512_0_0 : ∀ a, (![0, 0] : Fin 2 → Nat) a + S32x512.size a ≤ S32x512.size a
  h_S32x512 : 0 < S32x512.numel
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8192x512 : S1x512.Broadcasts S8192x512
  slices_S8192x512_o0_0_S8192x384 : S8192x512.Slices ![0, 0] S8192x384
  slices_S8192x384_o0_0_S8192x128 : S8192x384.Slices ![0, 0] S8192x128
  slices_S8192x384_o0_128_S8192x128 : S8192x384.Slices ![0, 128] S8192x128
  slices_S8192x384_o0_256_S8192x128 : S8192x384.Slices ![0, 256] S8192x128
  slices_S8192x512_o0_384_S8192x128 : S8192x512.Slices ![0, 384] S8192x128
  dot_S8192x32_S32x512_S8192x512_1_0_0_1_n_n_wf : DotDims.WF S8192x32 S32x512 S8192x512 [1] [0] [0] [1] [] []
  dot_S8192x128_S128x512_S8192x512_1_0_0_1_n_n_wf : DotDims.WF S8192x128 S128x512 S8192x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S262144x32.size a
  hwx0_0 : ∀ i : grid0.Coords, EltTy.bits .f32 = 32 ∨ (Rect.block (s := S262144x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x128.size a ≤ S262144x128.size a
  hwx0_6 : ∀ i : grid0.Coords, EltTy.bits .f32 = 32 ∨ (Rect.block (s := S262144x128) S8192x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S262144x128.size a
  hwx0_7 : ∀ i : grid0.Coords, EltTy.bits .f32 = 32 ∨ (Rect.block (s := S262144x128) S8192x128.size (cc0_transform_7 i) (hinb0_7 i)).WholeWords (EltTy.packing .f32)

variable [Facts₀]

def dot_S8192x32_S32x512_S8192x512_1_0_0_1_n_n : DotDims S8192x32 S32x512 S8192x512 where
  lhsContracting := [1]
  rhsContracting := [0]
  lhsNonContracting := [0]
  rhsNonContracting := [1]
  lhsBatch := []
  rhsBatch := []
  wf := dot_S8192x32_S32x512_S8192x512_1_0_0_1_n_n_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S8192x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S8192x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x32 : Shape := ⟨2, ![262144, 32]⟩
abbrev S262144x128 : Shape := ⟨2, ![262144, 128]⟩
abbrev S32x512 : Shape := ⟨2, ![32, 512]⟩
abbrev S128x512 : Shape := ⟨2, ![128, 512]⟩
abbrev S512 : Shape := ⟨1, ![512]⟩
abbrev S262144x512 : Shape := ⟨2, ![262144, 512]⟩
abbrev S1x512 : Shape := ⟨2, ![1, 512]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S262144x128, .f32⟩
  | .hbm, ⟨2, _⟩ => ⟨S262144x128, .f32⟩
  | .hbm, ⟨3, _⟩ => ⟨S32x512, .f32⟩
  | .hbm, ⟨4, _⟩ => ⟨S128x512, .f32⟩
  | .hbm, ⟨5, _⟩ => ⟨S512, .f32⟩
  | .hbm, ⟨6, _⟩ => ⟨S262144x512, .f32⟩
  | .hbm, ⟨7, _⟩ => ⟨S262144x512, .f32⟩
  | .hbm, ⟨8, _⟩ => ⟨S262144x512, .f32⟩
  | .hbm, ⟨9, _⟩ => ⟨S1x512, .f32⟩
  | .hbm, ⟨10, _⟩ => ⟨S262144x512, .f32⟩
  | .hbm, ⟨11, _⟩ => ⟨S262144x512, .f32⟩
  | .hbm, ⟨12, _⟩ => ⟨S262144x128, .f32⟩
  | .hbm, ⟨13, _⟩ => ⟨S262144x128, .f32⟩
  | .hbm, ⟨14, _⟩ => ⟨S262144x128, .f32⟩
  | .hbm, ⟨15, _⟩ => ⟨S_, .f32⟩
  | .hbm, ⟨16, _⟩ => ⟨S262144x128, .f32⟩
  | .hbm, ⟨17, _⟩ => ⟨S262144x128, .f32⟩
  | .hbm, ⟨18, _⟩ => ⟨S_, .f32⟩
  | .hbm, ⟨19, _⟩ => ⟨S262144x128, .f32⟩
  | .hbm, ⟨20, _⟩ => ⟨S262144x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S_, .f32⟩
  | .hbm, ⟨25, _⟩ => ⟨S262144x128, .f32⟩
  | .hbm, ⟨26, _⟩ => ⟨S262144x128, .f32⟩
  | .hbm, ⟨27, _⟩ => ⟨S_, .f32⟩
  | .hbm, ⟨28, _⟩ => ⟨S262144x128, .f32⟩
  | .hbm, ⟨29, _⟩ => ⟨S262144x128, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S_, .f32⟩
  | .hbm, ⟨34, _⟩ => ⟨S262144x128, .f32⟩
  | .hbm, ⟨35, _⟩ => ⟨S262144x128, .f32⟩
  | .hbm, ⟨36, _⟩ => ⟨S_, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S262144x128, .f32⟩
  | .hbm, ⟨45, _⟩ => ⟨S262144x128, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  slices_S262144x512_S262144x128_0_0 : S262144x512.Slices ![0, 0] S262144x128
  bcast_S_S262144x128 : S_.BroadcastsInDim S262144x128 (![] : Fin 0 → Fin S262144x128.rank)
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  dot_S262144x32_S32x512_S262144x512_1_0_0_1_n_n_wf : DotDims.WF S262144x32 S32x512 S262144x512 [1] [0] [0] [1] [] []
  dot_S262144x128_S128x512_S262144x512_1_0_0_1_n_n_wf : DotDims.WF S262144x128 S128x512 S262144x512 [1] [0] [0] [1] [] []

variable [Facts₀]

def dot_S262144x32_S32x512_S262144x512_1_0_0_1_n_n : DotDims S262144x32 S32x512 S262144x512 where
  lhsContracting := [1]
  rhsContracting := [0]
  lhsNonContracting := [0]
  rhsNonContracting := [1]
  lhsBatch := []
  rhsBatch := []
  wf := dot_S262144x32_S32x512_S262144x512_1_0_0_1_n_n_wf
def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf

class Facts : Prop extends Facts₀ where

variable [Facts]
-- ==== Proof.CellSpec.lean ====
/-
  One step of a long short-term memory cell, as functions of whole arrays on the extended reals.

  The inputs are a batch of rows x [B, 32], the previous hidden state h [B, 128] and cell state c [B, 128], two weight
  matrices wx [32, 512] and wh [128, 512], and a bias of 512 entries.  The pre-activation of row p at column q is

      pre p q = (Σ_k x[p, k] · wx[k, q]) + (Σ_k h[p, k] · wh[k, q]) + bias[q],

  and its 512 columns are four groups of 128: input gate, forget gate, output gate and candidate.  With σ the logistic
  function, the new cell state and the new hidden state at (p, q), q < 128, are

      c'[p, q] = σ(pre p (q + 128)) · c[p, q] + σ(pre p q) · tanh(pre p (q + 384)),
      h'[p, q] = σ(pre p (q + 256)) · tanh(c'[p, q]).

  Row p of the results depends on row p of x, h and c only, so the cell of a block of rows is the block of the cell:
  `pre_rows`, `cellState_rows`, `hidden_rows`.  The number of rows B is a parameter for that reason.
-/
import Idealize.ShloMosaic.PureOps.Ideal
import Idealize.ShloMosaic.Lib.ValueIdx

noncomputable section

namespace Cert.Cell

open Idealize.ShloMosaic Idealize.ShloMosaic.ValueIdx

/-- Column q of the input gate's group. -/
abbrev colI (q : Fin 128) : Fin 512 := ⟨q.val, by have := q.isLt; omega⟩
/-- Column q of the forget gate's group. -/
abbrev colF (q : Fin 128) : Fin 512 := ⟨q.val + 128, by have := q.isLt; omega⟩
/-- Column q of the output gate's group. -/
abbrev colO (q : Fin 128) : Fin 512 := ⟨q.val + 256, by have := q.isLt; omega⟩
/-- Column q of the candidate's group. -/
abbrev colG (q : Fin 128) : Fin 512 := ⟨q.val + 384, by have := q.isLt; omega⟩

variable {B : Nat}

/-- The pre-activation of row `p` at column `q`. -/
def pre (x : (⟨2, ![B, 32]⟩ : Shape).Idx → EReal) (h : (⟨2, ![B, 128]⟩ : Shape).Idx → EReal)
    (wx : (⟨2, ![32, 512]⟩ : Shape).Idx → EReal) (wh : (⟨2, ![128, 512]⟩ : Shape).Idx → EReal) (bias : Fin 512 → EReal)
    (p : Fin B) (q : Fin 512) : EReal :=
  (∑ k : Fin 32, x (ix2 p k) * wx (ix2 k q)) + (∑ k : Fin 128, h (ix2 p k) * wh (ix2 k q)) + bias q

/-- The new cell state at row `p`, column `q`. -/
def cellState (x : (⟨2, ![B, 32]⟩ : Shape).Idx → EReal) (h c : (⟨2, ![B, 128]⟩ : Shape).Idx → EReal)
    (wx : (⟨2, ![32, 512]⟩ : Shape).Idx → EReal) (wh : (⟨2, ![128, 512]⟩ : Shape).Idx → EReal) (bias : Fin 512 → EReal)
    (p : Fin B) (q : Fin 128) : EReal :=
  Ideal.logistic (pre x h wx wh bias p (colF q)) * c (ix2 p q)
    + Ideal.logistic (pre x h wx wh bias p (colI q)) * Ideal.tanh (pre x h wx wh bias p (colG q))

/-- The new hidden state at row `p`, column `q`. -/
def hidden (x : (⟨2, ![B, 32]⟩ : Shape).Idx → EReal) (h c : (⟨2, ![B, 128]⟩ : Shape).Idx → EReal)
    (wx : (⟨2, ![32, 512]⟩ : Shape).Idx → EReal) (wh : (⟨2, ![128, 512]⟩ : Shape).Idx → EReal) (bias : Fin 512 → EReal)
    (p : Fin B) (q : Fin 128) : EReal :=
  Ideal.logistic (pre x h wx wh bias p (colO q)) * Ideal.tanh (cellState x h c wx wh bias p q)

variable {B' : Nat}

/-- The pre-activation of a row depends on that row of x and h only. -/
theorem pre_rows (x : (⟨2, ![B, 32]⟩ : Shape).Idx → EReal) (h : (⟨2, ![B, 128]⟩ : Shape).Idx → EReal)
    (x' : (⟨2, ![B', 32]⟩ : Shape).Idx → EReal) (h' : (⟨2, ![B', 128]⟩ : Shape).Idx → EReal)
    (wx : (⟨2, ![32, 512]⟩ : Shape).Idx → EReal) (wh : (⟨2, ![128, 512]⟩ : Shape).Idx → EReal) (bias : Fin 512 → EReal)
    (p : Fin B) (p' : Fin B') (hx : ∀ k : Fin 32, x (ix2 p k) = x' (ix2 p' k))
    (hh : ∀ k : Fin 128, h (ix2 p k) = h' (ix2 p' k)) (q : Fin 512) :
    pre x h wx wh bias p q = pre x' h' wx wh bias p' q := by
  unfold pre
  simp only [hx, hh]

/-- The new cell state of a row depends on that row of x, h and c only. -/
theorem cellState_rows (x : (⟨2, ![B, 32]⟩ : Shape).Idx → EReal) (h c : (⟨2, ![B, 128]⟩ : Shape).Idx → EReal)
    (x' : (⟨2, ![B', 32]⟩ : Shape).Idx → EReal) (h' c' : (⟨2, ![B', 128]⟩ : Shape).Idx → EReal)
    (wx : (⟨2, ![32, 512]⟩ : Shape).Idx → EReal) (wh : (⟨2, ![128, 512]⟩ : Shape).Idx → EReal) (bias : Fin 512 → EReal)
    (p : Fin B) (p' : Fin B') (hx : ∀ k : Fin 32, x (ix2 p k) = x' (ix2 p' k))
    (hh : ∀ k : Fin 128, h (ix2 p k) = h' (ix2 p' k)) (hc : ∀ k : Fin 128, c (ix2 p k) = c' (ix2 p' k)) (q : Fin 128) :
    cellState x h c wx wh bias p q = cellState x' h' c' wx wh bias p' q := by
  unfold cellState
  rw [pre_rows x h x' h' wx wh bias p p' hx hh, pre_rows x h x' h' wx wh bias p p' hx hh,
    pre_rows x h x' h' wx wh bias p p' hx hh, hc q]

/-- The new hidden state of a row depends on that row of x, h and c only. -/
theorem hidden_rows (x : (⟨2, ![B, 32]⟩ : Shape).Idx → EReal) (h c : (⟨2, ![B, 128]⟩ : Shape).Idx → EReal)
    (x' : (⟨2, ![B', 32]⟩ : Shape).Idx → EReal) (h' c' : (⟨2, ![B', 128]⟩ : Shape).Idx → EReal)
    (wx : (⟨2, ![32, 512]⟩ : Shape).Idx → EReal) (wh : (⟨2, ![128, 512]⟩ : Shape).Idx → EReal) (bias : Fin 512 → EReal)
    (p : Fin B) (p' : Fin B') (hx : ∀ k : Fin 32, x (ix2 p k) = x' (ix2 p' k))
    (hh : ∀ k : Fin 128, h (ix2 p k) = h' (ix2 p' k)) (hc : ∀ k : Fin 128, c (ix2 p k) = c' (ix2 p' k)) (q : Fin 128) :
    hidden x h c wx wh bias p q = hidden x' h' c' wx wh bias p' q := by
  unfold hidden
  rw [pre_rows x h x' h' wx wh bias p p' hx hh, cellState_rows x h c x' h' c' wx wh bias p p' hx hh hc]

end Cert.Cell

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«129596_j58016418234996_2_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.LibLogisticTanh.lean ====
/-
  The logistic function written with a hyperbolic tangent, on the extended reals.

  For a real z, (1/2)·(1 + tanh(z/2)) = 1/(1 + e^(-z)): with a = e^(z/2), tanh(z/2) = (a - 1/a)/(a + 1/a), so
  1 + tanh(z/2) = 2a/(a + 1/a) = 2/(1 + 1/a²), and 1/a² = e^(-z).  At +∞ both sides are 1 (tanh is 1 there and
  e^(-∞) = 0); at -∞ both are 0 (tanh is -1 there, and 1/(1 + ∞) = 0).  So the two spellings are one function
  on all of [-∞, +∞], and no finiteness is needed to pass from one to the other.
-/
import Idealize.ShloMosaic.PureOps.Ideal

noncomputable section

namespace Cert.LogisticTanh

open Idealize.ShloMosaic

/-- The single-precision pattern of 0.5 denotes the real 1/2. -/
theorem ofBits_half : Ideal.ofBits .f32 0x3F000000#32 = ((1 / 2 : ℝ) : EReal) := by
  simp [Ideal.ofBits, Ideal.ieee, -EReal.coe_mul]; norm_num

/-- The single-precision pattern of 1.0 denotes 1. -/
theorem ofBits_one : Ideal.ofBits .f32 0x3F800000#32 = 1 := by
  simp [Ideal.ofBits, Ideal.ieee, -EReal.coe_mul]; norm_num

/-- On the reals: half of one plus the tangent of half the argument is the logistic function. -/
theorem real_half_tanh (r : ℝ) : (1 / 2 : ℝ) * (1 + Real.tanh (1 / 2 * r)) = (1 + Real.exp (-r))⁻¹ := by
  have ha : 0 < Real.exp (1 / 2 * r) := Real.exp_pos _
  have hneg : Real.exp (-(1 / 2 * r)) = (Real.exp (1 / 2 * r))⁻¹ := Real.exp_neg _
  have hr : Real.exp (-r) = (Real.exp (1 / 2 * r))⁻¹ * (Real.exp (1 / 2 * r))⁻¹ := by
    rw [← hneg, ← Real.exp_add]; congr 1; ring
  rw [Real.tanh_eq_sinh_div_cosh, Real.sinh_eq, Real.cosh_eq, hneg, hr]
  generalize Real.exp (1 / 2 * r) = a at ha
  have h0 : a ≠ 0 := ha.ne'
  have h1 : a + a⁻¹ ≠ 0 := by positivity
  have h2 : 1 + a⁻¹ * a⁻¹ ≠ 0 := by positivity
  field_simp
  ring

/-- On the extended reals, infinities included. -/
theorem half_tanh_eq_logistic (z : EReal) :
    ((1 / 2 : ℝ) : EReal) * (1 + Ideal.tanh (((1 / 2 : ℝ) : EReal) * z)) = Ideal.logistic z := by
  induction z using EReal.rec with
  | bot =>
    rw [EReal.coe_mul_bot_of_pos (by norm_num), Ideal.tanh_bot, Ideal.logistic_bot]
    have h : (1 : EReal) + -1 = 0 := by
      rw [← EReal.coe_one, ← EReal.coe_neg, ← EReal.coe_add, add_neg_cancel, EReal.coe_zero]
    rw [h, mul_zero]
  | coe r =>
    rw [← EReal.coe_mul, Ideal.tanh_coe, Ideal.logistic_coe, ← EReal.coe_one, ← EReal.coe_add, ← EReal.coe_mul,
      real_half_tanh]
  | top =>
    rw [EReal.coe_mul_top_of_pos (by norm_num), Ideal.tanh_top, Ideal.logistic_top, ← EReal.coe_one, ← EReal.coe_add,
      ← EReal.coe_mul]
    norm_num

/-- The tangent spelling over the bit patterns a program writes the two constants with. -/
theorem half_tanh_bits (z : EReal) :
    Ideal.ofBits .f32 0x3F000000#32 * (Ideal.ofBits .f32 0x3F800000#32 + Ideal.tanh (Ideal.ofBits .f32 0x3F000000#32 * z))
      = Ideal.logistic z := by
  rw [ofBits_half, ofBits_one, half_tanh_eq_logistic]

/-- The quotient spelling `1 / (1 + e^(-z))` over the bit pattern a program writes the constant with. -/
theorem quotient_bits (z : EReal) :
    Ideal.div (Ideal.ofBits .f32 0x3F800000#32) (Ideal.ofBits .f32 0x3F800000#32 + Ideal.exp (-z)) = Ideal.logistic z := by
  rw [ofBits_one]
  rfl

end Cert.LogisticTanh

end
-- ==== Proof.KernelBlock.lean ====
/-
  What the kernel's body leaves in its two output blocks, read at one entry: the cell of the block's rows.

  The body loads a block of 8192 rows of x, h and c, the two weight matrices whole and the bias as a [1, 512] row.  Its
  first 512-column value is the pre-activation of the block's rows: two products into zero accumulators (sums over
  the shared coordinate), added, plus the bias row repeated down the rows.  The output gate, forget gate and input
  gate are then spelt ½·(1 + tanh(½·z)) of the pre-activation's column groups — the logistic function, infinities
  included — and the rest of the body is the cell's own arithmetic.  So at row r and column q the block written for the
  hidden state is `Cell.hidden` and the block written for the cell state is `Cell.cellState`, of the loaded blocks.
-/
import proofs.«129596_j58016418234996_2_alg».proof.Proof.Gen.KernelIdeal.Value
import proofs.«129596_j58016418234996_2_alg».proof.Proof.CellSpec
import proofs.«129596_j58016418234996_2_alg».proof.Proof.LibMatmulRows
import proofs.«129596_j58016418234996_2_alg».proof.Proof.LibRowColOps
import proofs.«129596_j58016418234996_2_alg».proof.Proof.LibLogisticTanh
import Idealize.ShloMosaic.Lib.Pipeline.Value

noncomputable section

namespace Cert.KernelIdeal.Block

open Cert.KernelIdeal Cert.KernelIdeal.Gen Idealize.ShloMosaic Idealize.ShloMosaic.ValueIdx

/-- The bias as a function of the column, read off its one-row block. -/
abbrev biasOfRow (b : FVec Ideal S1x512 .f32) : Fin 512 → EReal := fun j => b (ix2 (0 : Fin 1) j)

/-- The body's 512-column value at row `r`, column `q`: the pre-activation of the block's row. -/
theorem pre_block (x0 : FVec Ideal S8192x32 .f32) (x1 : FVec Ideal S8192x128 .f32) (w0 : FVec Ideal S32x512 .f32)
    (w1 : FVec Ideal S128x512 .f32) (b : FVec Ideal S1x512 .f32) (r : Fin 8192) (q : Fin 512) :
    k0_pay1 (F := Ideal) x0 x1 w0 w1 b (ix2 r q) = Cell.pre x0 x1 w0 w1 (biasOfRow b) r q := by
  unfold k0_pay1 Cell.pre
  show FloatOps.matmul dot_S8192x32_S32x512_S8192x512_1_0_0_1_n_n none x0 w0 (constant S8192x512 .f32 0x00000000#32) (ix2 r q)
      + FloatOps.matmul dot_S8192x128_S128x512_S8192x512_1_0_0_1_n_n none x1 w1 (constant S8192x512 .f32 0x00000000#32) (ix2 r q)
      + broadcastTo S8192x512 (shapeCast S1x512 b shapeCasts_S1x512_S1x512) broadcasts_S1x512_S8192x512 (ix2 r q) = _
  rw [Cert.MatmulRows.matmul_zero_ix2 dot_S8192x32_S32x512_S8192x512_1_0_0_1_n_n rfl rfl rfl rfl rfl rfl,
    Cert.MatmulRows.matmul_zero_ix2 dot_S8192x128_S128x512_S8192x512_1_0_0_1_n_n rfl rfl rfl rfl rfl rfl,
    Cert.RowColOps.rowSpread_apply, shapeCast_self]

/-- The tangent spelling of a gate is the logistic function of the pre-activation. -/
theorem gate_eq (z : EReal) :
    FloatOps.mulf (F := Ideal) (φ := .f32) (Scalar.ofBits .f32 0x3F000000#32)
        (FloatOps.addf (Scalar.ofBits .f32 0x3F800000#32) (FloatOps.tanh (FloatOps.mulf (Scalar.ofBits .f32 0x3F000000#32) z)))
      = Ideal.logistic z :=
  Cert.LogisticTanh.half_tanh_bits z

/-- The block written for the cell state, at row `r`, column `q`. -/
theorem cellState_block (x0 : FVec Ideal S8192x32 .f32) (x1 : FVec Ideal S8192x128 .f32) (w0 : FVec Ideal S32x512 .f32)
    (w1 : FVec Ideal S128x512 .f32) (b : FVec Ideal S1x512 .f32) (x2 : FVec Ideal S8192x128 .f32) (r : Fin 8192) (q : Fin 128) :
    Value.E7 (F := Ideal) x0 x1 w0 w1 b x2 (ix2 r q) = Cell.cellState x0 x1 x2 w0 w1 (biasOfRow b) r q := by
  have i0 : Value.ix7_0 (ix2 r q) = ix2 r (Cell.colF q) :=
    funext fun a => Fin.ext (by match a with | ⟨0, _⟩ => rfl | ⟨1, _⟩ => rfl)
  have i1 : Value.ix7_1 (ix2 r q) = ix2 r q :=
    funext fun a => Fin.ext (by match a with | ⟨0, _⟩ => rfl | ⟨1, _⟩ => rfl)
  have i2 : Value.ix7_2 (ix2 r q) = ix2 r (Cell.colI q) :=
    funext fun a => Fin.ext (by match a with | ⟨0, _⟩ => rfl | ⟨1, _⟩ => rfl)
  have i3 : Value.ix7_3 (ix2 r q) = ix2 r (Cell.colG q) :=
    funext fun a => Fin.ext (by match a with | ⟨0, _⟩ => rfl | ⟨1, _⟩ => rfl)
  dsimp only [Value.E7]
  rw [i0, i1, i2, i3, pre_block, pre_block, pre_block, gate_eq, gate_eq]
  rfl

/-- The block written for the hidden state, at row `r`, column `q`. -/
theorem hidden_block (x0 : FVec Ideal S8192x32 .f32) (x1 : FVec Ideal S8192x128 .f32) (w0 : FVec Ideal S32x512 .f32)
    (w1 : FVec Ideal S128x512 .f32) (b : FVec Ideal S1x512 .f32) (x2 : FVec Ideal S8192x128 .f32) (r : Fin 8192) (q : Fin 128) :
    Value.E6 (F := Ideal) x0 x1 w0 w1 b x2 (ix2 r q) = Cell.hidden x0 x1 x2 w0 w1 (biasOfRow b) r q := by
  have i0 : Value.ix6_0 (ix2 r q) = ix2 r (Cell.colO q) :=
    funext fun a => Fin.ext (by match a with | ⟨0, _⟩ => rfl | ⟨1, _⟩ => rfl)
  have i1 : Value.ix6_1 (ix2 r q) = ix2 r (Cell.colF q) :=
    funext fun a => Fin.ext (by match a with | ⟨0, _⟩ => rfl | ⟨1, _⟩ => rfl)
  have i2 : Value.ix6_2 (ix2 r q) = ix2 r q :=
    funext fun a => Fin.ext (by match a with | ⟨0, _⟩ => rfl | ⟨1, _⟩ => rfl)
  have i3 : Value.ix6_3 (ix2 r q) = ix2 r (Cell.colI q) :=
    funext fun a => Fin.ext (by match a with | ⟨0, _⟩ => rfl | ⟨1, _⟩ => rfl)
  have i4 : Value.ix6_4 (ix2 r q) = ix2 r (Cell.colG q) :=
    funext fun a => Fin.ext (by match a with | ⟨0, _⟩ => rfl | ⟨1, _⟩ => rfl)
  dsimp only [Value.E6]
  rw [i0, i1, i2, i3, i4, pre_block, pre_block, pre_block, pre_block, gate_eq, gate_eq, gate_eq]
  rfl

end Cert.KernelIdeal.Block

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.KernelArray.lean ====
/-
  From the kernel's blocks to its two result arrays.

  The grid has 32 points.  Point t stages rows 8192·t … 8192·t + 8191 of x, h and c, the two weight matrices whole, and
  the bias as the one row that a reshape of the 512-entry vector makes before the region; it writes back rows
  8192·t … 8192·t + 8191 of both results.  The cell acts row by row, so what point t writes back is the block of the
  cell of the whole arrays; the 32 blocks tile the 262144 rows, so each result array ends holding the cell of the whole
  arrays: `final_hidden`, `final_cellState`, and the run re-posted with them, `run`.
-/
import proofs.«129596_j58016418234996_2_alg».proof.Proof.Gen.KernelIdeal.Value
import proofs.«129596_j58016418234996_2_alg».proof.Proof.KernelBlock
import proofs.«129596_j58016418234996_2_alg».proof.Proof.LibRowView
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The bias as a function of the column, read off the 512-entry argument. -/
abbrev biasOfVec (b : FVec Ideal S512 .f32) : Fin 512 → EReal := fun j => b (ix1 j)

/-- The new hidden state of the whole argument arrays, as an array. -/
def hiddenArr (c : Dev nD) : S262144x128.Idx → EReal := fun i =>
  Cell.hidden (B := 262144) (m ((c : Thread nD τ).loc main_arg0)) (m ((c : Thread nD τ).loc main_arg1)) (m ((c : Thread nD τ).loc main_arg2))
    (m ((c : Thread nD τ).loc main_arg3)) (m ((c : Thread nD τ).loc main_arg4)) (biasOfVec (m ((c : Thread nD τ).loc main_arg5))) (i 0) (i 1)

/-- The new cell state of the whole argument arrays, as an array. -/
def cellStateArr (c : Dev nD) : S262144x128.Idx → EReal := fun i =>
  Cell.cellState (B := 262144) (m ((c : Thread nD τ).loc main_arg0)) (m ((c : Thread nD τ).loc main_arg1)) (m ((c : Thread nD τ).loc main_arg2))
    (m ((c : Thread nD τ).loc main_arg3)) (m ((c : Thread nD τ).loc main_arg4)) (biasOfVec (m ((c : Thread nD τ).loc main_arg5))) (i 0) (i 1)

/-- Where each window's block sits at point `t`: the row-blocked windows at block row `t`, the weights and the bias
    at their one block (decided over the 32 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `r` of point `t`'s block is row `8192·t + r` of the array. -/
abbrev rowOf (t : Fin cfg0.N) (r : Fin 8192) : Fin 262144 :=
  ⟨t.val * 8192 + r.val, by have ht : t.val < 32 := (show cfg0.N = 32 from N_0) ▸ t.isLt; have := r.isLt; omega⟩

/-- The bias row the region finds: the reshape of the 512-entry argument. -/
theorem V_bias (c : Dev nD) :
    (V m c main_call0_v0 : S1x512.Idx → EReal) = shapeCast S1x512 (m ((c : Thread nD τ).loc main_arg5)) shapeCasts_S512_S1x512 := by
  dsimp only [Gen.V, Gen.hostOps0]
  after_results
  rfl

/-- Row \`r\` of the x window's block at point \`t\` is row \`8192·t + r\` of x. -/
theorem blk_x (c : Dev nD) (t : Fin cfg0.N) (r : Fin 8192) (k : Fin 32) :
    (iblk m c 0 t : FVec Ideal S8192x32 .f32) (ix2 r k)
      = (m ((c : Thread nD τ).loc main_arg0) : S262144x32.Idx → EReal) (ix2 (rowOf t r) k) := by
  obtain ⟨e00, e01, e10, e11, e20, e21, -⟩ := idx_facts t
  unfold iblk
  rw [View.read_apply]
  show V m c main_arg0 _ = _
  rw [V_main_arg0 m c]
  congr 1
  funext a
  apply Fin.ext
  match a with
  | ⟨0, _⟩ => show win0_0.index t (0 : Fin 2) * 8192 + 1 * r.val = t.val * 8192 + r.val; rw [e00]; omega
  | ⟨1, _⟩ => show win0_0.index t (1 : Fin 2) * 32 + 1 * k.val = k.val; rw [e01]; omega

/-- Row \`r\` of the h window's block at point \`t\` is row \`8192·t + r\` of h. -/
theorem blk_h (c : Dev nD) (t : Fin cfg0.N) (r : Fin 8192) (k : Fin 128) :
    (iblk m c 1 t : FVec Ideal S8192x128 .f32) (ix2 r k)
      = (m ((c : Thread nD τ).loc main_arg1) : S262144x128.Idx → EReal) (ix2 (rowOf t r) k) := by
  obtain ⟨e00, e01, e10, e11, e20, e21, -⟩ := idx_facts t
  unfold iblk
  rw [View.read_apply]
  show V m c main_arg1 _ = _
  rw [V_main_arg1 m c]
  congr 1
  funext a
  apply Fin.ext
  match a with
  | ⟨0, _⟩ => show win0_1.index t (0 : Fin 2) * 8192 + 1 * r.val = t.val * 8192 + r.val; rw [e10]; omega
  | ⟨1, _⟩ => show win0_1.index t (1 : Fin 2) * 128 + 1 * k.val = k.val; rw [e11]; omega

/-- Row \`r\` of the c window's block at point \`t\` is row \`8192·t + r\` of c. -/
theorem blk_c (c : Dev nD) (t : Fin cfg0.N) (r : Fin 8192) (k : Fin 128) :
    (iblk m c 2 t : FVec Ideal S8192x128 .f32) (ix2 r k)
      = (m ((c : Thread nD τ).loc main_arg2) : S262144x128.Idx → EReal) (ix2 (rowOf t r) k) := by
  obtain ⟨e00, e01, e10, e11, e20, e21, -⟩ := idx_facts t
  unfold iblk
  rw [View.read_apply]
  show V m c main_arg2 _ = _
  rw [V_main_arg2 m c]
  congr 1
  funext a
  apply Fin.ext
  match a with
  | ⟨0, _⟩ => show win0_2.index t (0 : Fin 2) * 8192 + 1 * r.val = t.val * 8192 + r.val; rw [e20]; omega
  | ⟨1, _⟩ => show win0_2.index t (1 : Fin 2) * 128 + 1 * k.val = k.val; rw [e21]; omega

/-- The first weight matrix's one block is the matrix, at every point. -/
theorem blk_wx (c : Dev nD) (t : Fin cfg0.N) :
    (iblk m c 3 t : FVec Ideal S32x512 .f32) = m ((c : Thread nD τ).loc main_arg3) := by
  obtain ⟨-, -, -, -, -, -, e30, e31, e40, e41, -⟩ := idx_facts t
  funext j
  unfold iblk
  rw [View.read_apply]
  show V m c main_arg3 _ = _
  rw [V_main_arg3 m c]
  congr 1
  funext a
  apply Fin.ext
  match a with
  | ⟨0, _⟩ => show win0_3.index t (0 : Fin 2) * 32 + 1 * (j 0).val = (j 0).val; rw [e30]; omega
  | ⟨1, _⟩ => show win0_3.index t (1 : Fin 2) * 512 + 1 * (j 1).val = (j 1).val; rw [e31]; omega

/-- The second weight matrix's one block is the matrix, at every point. -/
theorem blk_wh (c : Dev nD) (t : Fin cfg0.N) :
    (iblk m c 4 t : FVec Ideal S128x512 .f32) = m ((c : Thread nD τ).loc main_arg4) := by
  obtain ⟨-, -, -, -, -, -, e30, e31, e40, e41, -⟩ := idx_facts t
  funext j
  unfold iblk
  rw [View.read_apply]
  show V m c main_arg4 _ = _
  rw [V_main_arg4 m c]
  congr 1
  funext a
  apply Fin.ext
  match a with
  | ⟨0, _⟩ => show win0_4.index t (0 : Fin 2) * 128 + 1 * (j 0).val = (j 0).val; rw [e40]; omega
  | ⟨1, _⟩ => show win0_4.index t (1 : Fin 2) * 512 + 1 * (j 1).val = (j 1).val; rw [e41]; omega

/-- The bias row's one block, read along its row, is the 512-entry argument, at every point. -/
theorem blk_bias (c : Dev nD) (t : Fin cfg0.N) :
    Block.biasOfRow (iblk m c 5 t) = biasOfVec (m ((c : Thread nD τ).loc main_arg5)) := by
  obtain ⟨-, -, -, -, -, -, -, -, -, -, e50, e51, -⟩ := idx_facts t
  funext j
  show (iblk m c 5 t : FVec Ideal S1x512 .f32) (ix2 (0 : Fin 1) j) = _
  unfold iblk
  rw [View.read_apply]
  show V m c main_call0_v0 _ = _
  rw [V_bias m c]
  refine Eq.trans ?_ (Cert.RowView.row_apply _ shapeCasts_S512_S1x512 (0 : Fin 1) j)
  congr 1
  funext a
  apply Fin.ext
  match a with
  | ⟨0, _⟩ => show win0_5.index t (0 : Fin 2) * 1 + 1 * 0 = 0; rw [e50]
  | ⟨1, _⟩ => show win0_5.index t (1 : Fin 2) * 512 + 1 * j.val = j.val; rw [e51]; omega

/-- What the body leaves in the hidden state's buffer is the index-by-index form of its loaded blocks. -/
theorem out6_eq (x0 : Vec Ideal S8192x32 .f32) (x1 x2 : Vec Ideal S8192x128 .f32) (x3 : Vec Ideal S32x512 .f32)
    (x4 : Vec Ideal S128x512 .f32) (x5 : Vec Ideal S1x512 .f32) :
    out0_6 x0 x1 x2 x3 x4 x5 = Value.E6 x0 x1 x3 x4 x5 x2 := by
  unfold out0_6
  funext y
  rw [Value.canon6_eq]
  simp only [View.ld_unit_zero (S := S8192x32) hz, View.ld_unit_zero (S := S8192x128) hz,
    View.ld_unit_zero (S := S32x512) hz, View.ld_unit_zero (S := S128x512) hz, View.ld_unit_zero (S := S1x512) hz]

/-- What the body leaves in the cell state's buffer is the index-by-index form of its loaded blocks. -/
theorem out7_eq (x0 : Vec Ideal S8192x32 .f32) (x1 x2 : Vec Ideal S8192x128 .f32) (x3 : Vec Ideal S32x512 .f32)
    (x4 : Vec Ideal S128x512 .f32) (x5 : Vec Ideal S1x512 .f32) :
    out0_7 x0 x1 x2 x3 x4 x5 = Value.E7 x0 x1 x3 x4 x5 x2 := by
  unfold out0_7
  funext y
  rw [Value.canon7_eq]
  simp only [View.ld_unit_zero (S := S8192x32) hz, View.ld_unit_zero (S := S8192x128) hz,
    View.ld_unit_zero (S := S32x512) hz, View.ld_unit_zero (S := S128x512) hz, View.ld_unit_zero (S := S1x512) hz]

/-- What point \`t\` leaves for the hidden state, at a block entry: the cell of the whole arrays at the block's row. -/
theorem hidden_at (c : Dev nD) (t : Fin cfg0.N) (j : S8192x128.Idx) :
    Value.E6 (F := Ideal) (iblk m c 0 t) (iblk m c 1 t) (iblk m c 3 t) (iblk m c 4 t) (iblk m c 5 t) (iblk m c 2 t) j
      = hiddenArr m c (ix2 (rowOf t (j 0)) (j 1)) := by
  obtain ⟨r, q, rfl⟩ : ∃ (r : Fin 8192) (q : Fin 128), j = ix2 r q := ⟨j 0, j 1, eq_ix2 j⟩
  refine (Block.hidden_block (iblk m c 0 t) (iblk m c 1 t) (iblk m c 3 t) (iblk m c 4 t) (iblk m c 5 t) (iblk m c 2 t) r q).trans ?_
  rw [blk_bias m c t, blk_wx m c t, blk_wh m c t]
  exact Cell.hidden_rows (B := 8192) (B' := 262144) _ _ _ _ _ _ _ _ _ r (rowOf t r) (blk_x m c t r) (blk_h m c t r)
    (blk_c m c t r) q

/-- What point \`t\` leaves for the cell state, at a block entry: the cell of the whole arrays at the block's row. -/
theorem cellState_at (c : Dev nD) (t : Fin cfg0.N) (j : S8192x128.Idx) :
    Value.E7 (F := Ideal) (iblk m c 0 t) (iblk m c 1 t) (iblk m c 3 t) (iblk m c 4 t) (iblk m c 5 t) (iblk m c 2 t) j
      = cellStateArr m c (ix2 (rowOf t (j 0)) (j 1)) := by
  obtain ⟨r, q, rfl⟩ : ∃ (r : Fin 8192) (q : Fin 128), j = ix2 r q := ⟨j 0, j 1, eq_ix2 j⟩
  refine (Block.cellState_block (iblk m c 0 t) (iblk m c 1 t) (iblk m c 3 t) (iblk m c 4 t) (iblk m c 5 t) (iblk m c 2 t) r q).trans ?_
  rw [blk_bias m c t, blk_wx m c t, blk_wh m c t]
  exact Cell.cellState_rows (B := 8192) (B' := 262144) _ _ _ _ _ _ _ _ _ r (rowOf t r) (blk_x m c t r) (blk_h m c t r)
    (blk_c m c t r) q

/-- What point \`t\` writes back to the hidden state's array is block \`t\` of the cell's hidden state. -/
theorem flushed_hidden (c : Dev nD) (t : Fin cfg0.N) :
    (dats m 0 c).flushed 6 t = ((cfg0.win 6).blk t).view.read (Elt Ideal) (hiddenArr m c) := by
  obtain ⟨-, -, -, -, -, -, -, -, -, -, -, -, e60, e61, -⟩ := idx_facts t
  refine (Value.flushed6 m c t).trans ?_
  rw [show out0_6 (iblk m c 0 t) (iblk m c 1 t) (iblk m c 2 t) (iblk m c 3 t) (iblk m c 4 t) (iblk m c 5 t)
      = Value.E6 (F := Ideal) (iblk m c 0 t) (iblk m c 1 t) (iblk m c 3 t) (iblk m c 4 t) (iblk m c 5 t) (iblk m c 2 t)
    from out6_eq _ _ _ _ _ _]
  funext j
  show Value.E6 (F := Ideal) (iblk m c 0 t) (iblk m c 1 t) (iblk m c 3 t) (iblk m c 4 t) (iblk m c 5 t) (iblk m c 2 t) j
    = hiddenArr m c (((cfg0.win 6).blk t).view.emb j)
  refine (hidden_at m c t j).trans ?_
  congr 1
  funext a
  apply Fin.ext
  match a with
  | ⟨0, _⟩ => show t.val * 8192 + (j 0).val = win0_6.index t (0 : Fin 2) * 8192 + 1 * (j 0).val; rw [e60]; omega
  | ⟨1, _⟩ => show (j 1).val = win0_6.index t (1 : Fin 2) * 128 + 1 * (j 1).val; rw [e61]; omega

/-- What point \`t\` writes back to the cell state's array is block \`t\` of the cell's new cell state. -/
theorem flushed_cellState (c : Dev nD) (t : Fin cfg0.N) :
    (dats m 0 c).flushed 7 t = ((cfg0.win 7).blk t).view.read (Elt Ideal) (cellStateArr m c) := by
  obtain ⟨-, -, -, -, -, -, -, -, -, -, -, -, -, -, e70, e71⟩ := idx_facts t
  refine (Value.flushed7 m c t).trans ?_
  rw [show out0_7 (iblk m c 0 t) (iblk m c 1 t) (iblk m c 2 t) (iblk m c 3 t) (iblk m c 4 t) (iblk m c 5 t)
      = Value.E7 (F := Ideal) (iblk m c 0 t) (iblk m c 1 t) (iblk m c 3 t) (iblk m c 4 t) (iblk m c 5 t) (iblk m c 2 t)
    from out7_eq _ _ _ _ _ _]
  funext j
  show Value.E7 (F := Ideal) (iblk m c 0 t) (iblk m c 1 t) (iblk m c 3 t) (iblk m c 4 t) (iblk m c 5 t) (iblk m c 2 t) j
    = cellStateArr m c (((cfg0.win 7).blk t).view.emb j)
  refine (cellState_at m c t j).trans ?_
  congr 1
  funext a
  apply Fin.ext
  match a with
  | ⟨0, _⟩ => show t.val * 8192 + (j 0).val = win0_7.index t (0 : Fin 2) * 8192 + 1 * (j 0).val; rw [e70]; omega
  | ⟨1, _⟩ => show (j 1).val = win0_7.index t (1 : Fin 2) * 128 + 1 * (j 1).val; rw [e71]; omega

/-- An index of the array is in point `t`'s block iff each coordinate is in the block's range on its axis. -/
theorem mem_blk6 (t : Fin cfg0.N) (i : S262144x128.Idx) :
    i ∈ ((cfg0.win 6).blk t).view.set ↔ ∀ a : Fin 2, win0_6.index t a * S8192x128.size a ≤ (i a).val
      ∧ (i a).val < win0_6.index t a * S8192x128.size a + S8192x128.size a := by
  show i ∈ ((View.whole main_v0_0).slice (win0_6.rect t)).set ↔ _
  rw [View.set_slice_whole, Rect.mem_set_unit]
  exact Iff.rfl

/-- Every row lies in the block of the point numbered by the row's quotient by 8192. -/
theorem cover6 (i : S262144x128.Idx) :
    ∃ t : Fin cfg0.N, (cfg0.win 6).flush t = true ∧ i ∈ ((cfg0.win 6).blk t).view.set := by
  have hi0 : (i 0).val < 262144 := (i 0).isLt
  have hi1 : (i 1).val < 128 := (i 1).isLt
  have hN : cfg0.N = 32 := N_0
  refine ⟨⟨(i 0).val / 8192, by rw [hN]; omega⟩, flush0_6 _, ?_⟩
  obtain ⟨-, -, -, -, -, -, -, -, -, -, -, -, e60, e61, -⟩ := idx_facts ⟨(i 0).val / 8192, by rw [hN]; omega⟩
  rw [mem_blk6]
  intro a
  match a with
  | ⟨0, _⟩ =>
    show win0_6.index _ (0 : Fin 2) * 8192 ≤ (i 0).val ∧ (i 0).val < win0_6.index _ (0 : Fin 2) * 8192 + 8192
    rw [e60]
    show (i 0).val / 8192 * 8192 ≤ (i 0).val ∧ (i 0).val < (i 0).val / 8192 * 8192 + 8192
    omega
  | ⟨1, _⟩ =>
    show win0_6.index _ (1 : Fin 2) * 128 ≤ (i 1).val ∧ (i 1).val < win0_6.index _ (1 : Fin 2) * 128 + 128
    rw [e61]
    omega

/-- An index of the array is in point `t`'s block iff each coordinate is in the block's range on its axis. -/
theorem mem_blk7 (t : Fin cfg0.N) (i : S262144x128.Idx) :
    i ∈ ((cfg0.win 7).blk t).view.set ↔ ∀ a : Fin 2, win0_7.index t a * S8192x128.size a ≤ (i a).val
      ∧ (i a).val < win0_7.index t a * S8192x128.size a + S8192x128.size a := by
  show i ∈ ((View.whole main_v0_1).slice (win0_7.rect t)).set ↔ _
  rw [View.set_slice_whole, Rect.mem_set_unit]
  exact Iff.rfl

/-- Every row lies in the block of the point numbered by the row's quotient by 8192. -/
theorem cover7 (i : S262144x128.Idx) :
    ∃ t : Fin cfg0.N, (cfg0.win 7).flush t = true ∧ i ∈ ((cfg0.win 7).blk t).view.set := by
  have hi0 : (i 0).val < 262144 := (i 0).isLt
  have hi1 : (i 1).val < 128 := (i 1).isLt
  have hN : cfg0.N = 32 := N_0
  refine ⟨⟨(i 0).val / 8192, by rw [hN]; omega⟩, flush0_7 _, ?_⟩
  obtain ⟨-, -, -, -, -, -, -, -, -, -, -, -, -, -, e70, e71⟩ := idx_facts ⟨(i 0).val / 8192, by rw [hN]; omega⟩
  rw [mem_blk7]
  intro a
  match a with
  | ⟨0, _⟩ =>
    show win0_7.index _ (0 : Fin 2) * 8192 ≤ (i 0).val ∧ (i 0).val < win0_7.index _ (0 : Fin 2) * 8192 + 8192
    rw [e70]
    show (i 0).val / 8192 * 8192 ≤ (i 0).val ∧ (i 0).val < (i 0).val / 8192 * 8192 + 8192
    omega
  | ⟨1, _⟩ =>
    show win0_7.index _ (1 : Fin 2) * 128 ≤ (i 1).val ∧ (i 1).val < win0_7.index _ (1 : Fin 2) * 128 + 128
    rw [e71]
    omega

/-- The hidden state's array after the run. -/
theorem final_hidden (c : Dev nD) : (dats m 0 c).arrAt 6 cfg0.N = hiddenArr m c :=
  (dats m 0 c).arrAt_eq_of_cover 6 (hiddenArr m c) (fun t _ => flushed_hidden m c t) cover6

/-- The cell state's array after the run. -/
theorem final_cellState (c : Dev nD) : (dats m 0 c).arrAt 7 cfg0.N = cellStateArr m c :=
  (dats m 0 c).arrAt_eq_of_cover 7 (cellStateArr m c) (fun t _ => flushed_cellState m c t) cover7

/-- The kernel's run, read: both result arrays at the cell of the argument arrays, the arguments unchanged. -/
theorem run : θ_run defs (onTc (τ := τ) (main (F := Ideal))) ⟨m, fun _ => 0, ρ⟩ fun r => ∀ c : Dev nD,
      r.2.mem ((c : Thread nD τ).loc main_v0_0) = hiddenArr m c
      ∧ r.2.mem ((c : Thread nD τ).loc main_v0_1) = cellStateArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_hidden m c), (h c).2.1.trans (final_cellState m c), (h c).2.2⟩)
    (Value.run_blocks m ρ)

end Cert.KernelIdeal.Whole

end
-- ==== Proof.RefCell.lean ====
/-
  The reference program's two results, read at one entry: the cell of the whole arrays.

  The reference computes the pre-activation of all 262144 rows at once — two general products, added, plus the bias
  repeated down the rows —, slices its four column groups, applies 1 / (1 + e^(-z)) to three of them and the
  hyperbolic tangent to the fourth, and finishes with the cell's arithmetic.  The quotient 1 / (1 + e^(-z)) is the
  logistic function by definition, so at row p and column q the two results are `Cell.hidden` and
  `Cell.cellState` of the argument arrays.
-/
import proofs.«129596_j58016418234996_2_alg».proof.Proof.Gen.ReferenceIdeal.Read
import proofs.«129596_j58016418234996_2_alg».proof.Proof.CellSpec
import proofs.«129596_j58016418234996_2_alg».proof.Proof.LibLogisticTanh

noncomputable section

namespace Cert.ReferenceIdeal.RefCell

open Cert.ReferenceIdeal Cert.ReferenceIdeal.Read Idealize.ShloMosaic Idealize.ShloMosaic.ValueIdx

/-- The bias as a function of the column, read off the 512-entry vector. -/
abbrev biasOfVec (b : FVec Ideal S512 .f32) : Fin 512 → EReal := fun j => b (ix1 j)

/-- The reference's pre-activation array at row `p`, column `q`. -/
theorem pre_ref (x0 : FVec Ideal S262144x32 .f32) (x1 : FVec Ideal S262144x128 .f32) (x3 : FVec Ideal S32x512 .f32) (x4 : FVec Ideal S128x512 .f32) (x5 : FVec Ideal S512 .f32) (p : Fin 262144) (q : Fin 512) :
    val_main_v5 (F := Ideal) x0 x1 x3 x4 x5 (ix2 p q) = Cell.pre x0 x1 x3 x4 (biasOfVec x5) p q := by
  have l0 : ∀ k : Fin 32, lidx_main_v0 (ix2 p q) k = ix2 p k := fun k =>
    funext fun a => Fin.ext (by match a with | ⟨0, _⟩ => rfl | ⟨1, _⟩ => rfl)
  have r0 : ∀ k : Fin 32, ridx_main_v0 (ix2 p q) k = ix2 k q := fun k =>
    funext fun a => Fin.ext (by match a with | ⟨0, _⟩ => rfl | ⟨1, _⟩ => rfl)
  have l1 : ∀ k : Fin 128, lidx_main_v1 (ix2 p q) k = ix2 p k := fun k =>
    funext fun a => Fin.ext (by match a with | ⟨0, _⟩ => rfl | ⟨1, _⟩ => rfl)
  have r1 : ∀ k : Fin 128, ridx_main_v1 (ix2 p q) k = ix2 k q := fun k =>
    funext fun a => Fin.ext (by match a with | ⟨0, _⟩ => rfl | ⟨1, _⟩ => rfl)
  have bq : idx_main_v3 (idx_main_v4 (ix2 p q)) = ix1 q :=
    funext fun a => Fin.ext (by match a with | ⟨0, _⟩ => rfl)
  rw [val_main_v5_apply, val_main_v2_apply, val_main_v0_apply, val_main_v1_apply, val_main_v4_apply, val_main_v3_apply, bq]
  simp only [l0, r0, l1, r1]
  rfl

/-- The input gate: the quotient spelling over the first column group. -/
theorem gateI_ref (x0 : FVec Ideal S262144x32 .f32) (x1 : FVec Ideal S262144x128 .f32) (x3 : FVec Ideal S32x512 .f32) (x4 : FVec Ideal S128x512 .f32) (x5 : FVec Ideal S512 .f32) (p : Fin 262144) (q : Fin 128) :
    val_main_v12 (F := Ideal) x0 x1 x3 x4 x5 (ix2 p q) = Ideal.logistic (Cell.pre x0 x1 x3 x4 (biasOfVec x5) p (Cell.colI q)) := by
  have s : idx_main_v6 (ix2 p q) = ix2 p (Cell.colI q) :=
    funext fun a => Fin.ext (by match a with | ⟨0, _⟩ => rfl | ⟨1, _⟩ => rfl)
  rw [val_main_v12_apply, val_main_v11_apply, val_main_cst_0_apply, val_main_v10_apply, val_main_v9_apply, val_main_cst_apply, val_main_v8_apply,
    val_main_v7_apply, val_main_v6_apply, s, pre_ref]
  exact Cert.LogisticTanh.quotient_bits _

/-- The forget gate: the quotient spelling over the second column group. -/
theorem gateF_ref (x0 : FVec Ideal S262144x32 .f32) (x1 : FVec Ideal S262144x128 .f32) (x3 : FVec Ideal S32x512 .f32) (x4 : FVec Ideal S128x512 .f32) (x5 : FVec Ideal S512 .f32) (p : Fin 262144) (q : Fin 128) :
    val_main_v19 (F := Ideal) x0 x1 x3 x4 x5 (ix2 p q) = Ideal.logistic (Cell.pre x0 x1 x3 x4 (biasOfVec x5) p (Cell.colF q)) := by
  have s : idx_main_v13 (ix2 p q) = ix2 p (Cell.colF q) :=
    funext fun a => Fin.ext (by match a with | ⟨0, _⟩ => rfl | ⟨1, _⟩ => exact Nat.add_comm 128 q.val)
  rw [val_main_v19_apply, val_main_v18_apply, val_main_cst_2_apply, val_main_v17_apply, val_main_v16_apply, val_main_cst_1_apply, val_main_v15_apply,
    val_main_v14_apply, val_main_v13_apply, s, pre_ref]
  exact Cert.LogisticTanh.quotient_bits _

/-- The output gate: the quotient spelling over the third column group. -/
theorem gateO_ref (x0 : FVec Ideal S262144x32 .f32) (x1 : FVec Ideal S262144x128 .f32) (x3 : FVec Ideal S32x512 .f32) (x4 : FVec Ideal S128x512 .f32) (x5 : FVec Ideal S512 .f32) (p : Fin 262144) (q : Fin 128) :
    val_main_v26 (F := Ideal) x0 x1 x3 x4 x5 (ix2 p q) = Ideal.logistic (Cell.pre x0 x1 x3 x4 (biasOfVec x5) p (Cell.colO q)) := by
  have s : idx_main_v20 (ix2 p q) = ix2 p (Cell.colO q) :=
    funext fun a => Fin.ext (by match a with | ⟨0, _⟩ => rfl | ⟨1, _⟩ => exact Nat.add_comm 256 q.val)
  rw [val_main_v26_apply, val_main_v25_apply, val_main_cst_4_apply, val_main_v24_apply, val_main_v23_apply, val_main_cst_3_apply, val_main_v22_apply,
    val_main_v21_apply, val_main_v20_apply, s, pre_ref]
  exact Cert.LogisticTanh.quotient_bits _

/-- The candidate: the hyperbolic tangent of the fourth column group. -/
theorem cand_ref (x0 : FVec Ideal S262144x32 .f32) (x1 : FVec Ideal S262144x128 .f32) (x3 : FVec Ideal S32x512 .f32) (x4 : FVec Ideal S128x512 .f32) (x5 : FVec Ideal S512 .f32) (p : Fin 262144) (q : Fin 128) :
    val_main_v28 (F := Ideal) x0 x1 x3 x4 x5 (ix2 p q) = Ideal.tanh (Cell.pre x0 x1 x3 x4 (biasOfVec x5) p (Cell.colG q)) := by
  have s : idx_main_v27 (ix2 p q) = ix2 p (Cell.colG q) :=
    funext fun a => Fin.ext (by match a with | ⟨0, _⟩ => rfl | ⟨1, _⟩ => exact Nat.add_comm 384 q.val)
  rw [val_main_v28_apply, val_main_v27_apply, s, pre_ref]
  rfl

/-- The reference's new cell state at row `p`, column `q`. -/
theorem cellState_ref (x0 : FVec Ideal S262144x32 .f32) (x1 x2 : FVec Ideal S262144x128 .f32) (x3 : FVec Ideal S32x512 .f32) (x4 : FVec Ideal S128x512 .f32) (x5 : FVec Ideal S512 .f32) (p : Fin 262144) (q : Fin 128) :
    val_main_v31 (F := Ideal) x0 x1 x2 x3 x4 x5 (ix2 p q) = Cell.cellState x0 x1 x2 x3 x4 (biasOfVec x5) p q := by
  rw [val_main_v31_apply, val_main_v29_apply, val_main_v30_apply, gateF_ref, gateI_ref, cand_ref]
  rfl

/-- The reference's new hidden state at row `p`, column `q`. -/
theorem hidden_ref (x0 : FVec Ideal S262144x32 .f32) (x1 x2 : FVec Ideal S262144x128 .f32) (x3 : FVec Ideal S32x512 .f32) (x4 : FVec Ideal S128x512 .f32) (x5 : FVec Ideal S512 .f32) (p : Fin 262144) (q : Fin 128) :
    val_main_v33 (F := Ideal) x0 x1 x2 x3 x4 x5 (ix2 p q) = Cell.hidden x0 x1 x2 x3 x4 (biasOfVec x5) p q := by
  rw [val_main_v33_apply, val_main_v32_apply, gateO_ref, cellState_ref]
  rfl

end Cert.ReferenceIdeal.RefCell

end
-- ==== Proof.lean ====
/-
  One step of a long short-term memory cell over 262144 rows: a kernel that walks the rows in 32 blocks of 8192 against a
  reference that computes all rows at once.

  Both programs form the same pre-activation, row by row: x·Wx + h·Wh + bias, each product a sum over the shared
  coordinate on the extended reals, the kernel's into a zero accumulator and the reference's as a general product.  They
  differ in how they spell the three gates: the kernel writes ½·(1 + tanh(½·z)), the reference 1 / (1 + e^(-z)).  These
  are one function on all of [-∞, +∞] — on the reals by the identity tanh(z/2) = (1 - e^(-z)) / (1 + e^(-z)), and at the
  two infinities both give 1 and 0 — so the equality of the results needs no finiteness of the inputs.  The rest of the
  cell, c' = f·c + i·tanh(g) and h' = o·tanh(c'), is the same arithmetic in the same order on both sides.

  The cell acts on each row by itself, so the kernel's block of rows is the block of the cell of the whole arrays, and
  its 32 blocks tile the two result arrays (Proof/KernelArray.lean, over the block-level reading in
  Proof/KernelBlock.lean); the reference's two results are read entry by entry in Proof/RefCell.lean; both meet in the
  functions of Proof/CellSpec.lean.  The three frames are the generated frame runs (the reference's: its generated run
  with the results dropped), and the idealization rewrote nothing.
-/
import proofs.«129596_j58016418234996_2_alg».proof.Defs
import proofs.«129596_j58016418234996_2_alg».proof.Proof.Gen.Kernel
import proofs.«129596_j58016418234996_2_alg».proof.Proof.Gen.Kernel.Skeleton
import proofs.«129596_j58016418234996_2_alg».proof.Proof.Gen.Kernel.Launch
import proofs.«129596_j58016418234996_2_alg».proof.Proof.Gen.Kernel.Points
import proofs.«129596_j58016418234996_2_alg».proof.Proof.Gen.Kernel.Frame
import proofs.«129596_j58016418234996_2_alg».proof.Proof.Gen.KernelIdeal
import proofs.«129596_j58016418234996_2_alg».proof.Proof.Gen.KernelIdeal.Skeleton
import proofs.«129596_j58016418234996_2_alg».proof.Proof.Gen.KernelIdeal.Launch
import proofs.«129596_j58016418234996_2_alg».proof.Proof.Gen.KernelIdeal.Points
import proofs.«129596_j58016418234996_2_alg».proof.Proof.Gen.KernelIdeal.Frame
import proofs.«129596_j58016418234996_2_alg».proof.Proof.Gen.ReferenceIdeal
import proofs.«129596_j58016418234996_2_alg».proof.Proof.Gen.Pre_finite_inputs
import proofs.«129596_j58016418234996_2_alg».proof.Proof.Gen.KernelIdeal.Value
import proofs.«129596_j58016418234996_2_alg».proof.Proof.Gen.ReferenceIdeal.Run
import proofs.«129596_j58016418234996_2_alg».proof.Proof.Gen.ReferenceIdeal.Read
import proofs.«129596_j58016418234996_2_alg».proof.Proof.KernelArray
import proofs.«129596_j58016418234996_2_alg».proof.Proof.RefCell
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The reference's first result, as an array, is the cell's new hidden state of its arguments. -/
theorem ref_hidden (x0 : FVec Ideal Cert.ReferenceIdeal.S262144x32 .f32) (x1 x2 : FVec Ideal Cert.ReferenceIdeal.S262144x128 .f32)
    (x3 : FVec Ideal Cert.ReferenceIdeal.S32x512 .f32) (x4 : FVec Ideal Cert.ReferenceIdeal.S128x512 .f32)
    (x5 : FVec Ideal Cert.ReferenceIdeal.S512 .f32) :
    Cert.ReferenceIdeal.Read.val_main_v33 (F := Ideal) x0 x1 x2 x3 x4 x5
      = fun i => Cell.hidden (B := 262144) x0 x1 x2 x3 x4 (fun j => x5 (ix1 j)) (i 0) (i 1) := by
  funext i
  obtain ⟨p, q, rfl⟩ : ∃ (p : Fin 262144) (q : Fin 128), i = ix2 p q := ⟨i 0, i 1, eq_ix2 i⟩
  exact Cert.ReferenceIdeal.RefCell.hidden_ref x0 x1 x2 x3 x4 x5 p q

/-- The reference's second result, as an array, is the cell's new cell state of its arguments. -/
theorem ref_cellState (x0 : FVec Ideal Cert.ReferenceIdeal.S262144x32 .f32) (x1 x2 : FVec Ideal Cert.ReferenceIdeal.S262144x128 .f32)
    (x3 : FVec Ideal Cert.ReferenceIdeal.S32x512 .f32) (x4 : FVec Ideal Cert.ReferenceIdeal.S128x512 .f32)
    (x5 : FVec Ideal Cert.ReferenceIdeal.S512 .f32) :
    Cert.ReferenceIdeal.Read.val_main_v31 (F := Ideal) x0 x1 x2 x3 x4 x5
      = fun i => Cell.cellState (B := 262144) x0 x1 x2 x3 x4 (fun j => x5 (ix1 j)) (i 0) (i 1) := by
  funext i
  obtain ⟨p, q, rfl⟩ : ∃ (p : Fin 262144) (q : Fin 128), i = ix2 p q := ⟨i 0, i 1, eq_ix2 i⟩
  exact Cert.ReferenceIdeal.RefCell.cellState_ref x0 x1 x2 x3 x4 x5 p q

/-- Both programs end with the cell's new hidden state and new cell state of the argument arrays. -/
theorem algebraic : Cert.algebraic_KernelIdeal_ReferenceIdeal := by
  intro m ρ m' ρ' _ hagree
  refine ⟨fun c => Cert.KernelIdeal.Whole.hiddenArr m c, fun c => Cert.KernelIdeal.Whole.cellStateArr m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v33_eq _ _ _ _ _ _).trans ?_
    rw [ref_hidden, (hagree c).1, (hagree c).2.1, (hagree c).2.2.1, (hagree c).2.2.2.1, (hagree c).2.2.2.2.1,
      (hagree c).2.2.2.2.2]
    rfl
  · refine (Cert.ReferenceIdeal.Read.val_main_v31_eq _ _ _ _ _ _).trans ?_
    rw [ref_cellState, (hagree c).1, (hagree c).2.1, (hagree c).2.2.1, (hagree c).2.2.2.1, (hagree c).2.2.2.2.1,
      (hagree c).2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
